-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 59
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S256x256, .bf16⟩
  | .hbm, ⟨39, _⟩ => ⟨S256x256, .bf16⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S256x256, .bf16⟩
  | .hbm, ⟨56, _⟩ => ⟨S256x256, .bf16⟩
  | .hbm, ⟨57, _⟩ => ⟨S1x256, .f32⟩
  | .hbm, ⟨58, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .bf16⟩
  | .local _ .vmem, ⟨18, _⟩ => ⟨S256x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its result named.

  The program is two kernel launches among stretches of host operations. Its run is read segment by segment: the buffers'
  contents at each boundary are a fold from the launch memory (a stretch applies its operations; a launch leaves each of
  its arrays at what its write-backs put there and every other buffer as it found it). Every weakly fair execution ends
  with every unscoped buffer at the last boundary's contents; read at the result's buffer this names the result, and read
  at an argument's buffer it walks back to the launch memory.
-/
import proofs.«150199_j24610162606526_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result's buffer at the last boundary's contents and
    the argument arrays as launched. -/
theorem run_named : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibMeanLayer.lean ====
/-
  One mean-aggregating graph layer (mean of the neighbours' rows times one weight matrix, plus a bias, plus the node's own row
  times another), entry by entry, in two arrangements, generic in the number of nodes and the feature width; and the law that
  joins them on the extended reals (`Cert.LayerLaw.scaledAt_eq_meanAt`), which needs only that the count is not zero.

  For a node `p` and an output feature `q`, with `S` the sum of the neighbours' feature rows arriving at each node, `cnt` the
  number of arriving edges (at least one), `X` the nodes' own features, two weight matrices and a bias:

  * the first arrangement scales the summed row by a precomputed reciprocal `inv p`, multiplies by the left weights, adds the
    product of the node's own row with the right weights, and adds the bias last:
    `((∑ k, (S[p,k] · inv[p]) · Wl[k,q]) + ∑ k, X[p,k] · Wr[k,q]) + b[q]`;
  * the second divides the summed row by the count, multiplies by the left weights, adds the bias, and adds the product with
    the right weights last: `((∑ k, (S[p,k] / cnt[p]) · Wl[k,q]) + b[q]) + ∑ k, X[p,k] · Wr[k,q]`.

  On the extended reals a quotient by a non-zero `c` is the product with `c⁻¹`, and `1 / c` is `c⁻¹`, so with
  `inv p = 1 / cnt p` and `cnt p ≠ 0` the scaled entries agree term by term; the two orders of adding the bias agree because
  addition is commutative and associative there. No finiteness is used.
-/
import Idealize.ShloMosaic.Lib.ValueIdx
import Idealize.ShloMosaic.PureOps.Ideal

noncomputable section

namespace Cert.LayerLaw

open Idealize.ShloMosaic Idealize.ShloMosaic.ValueIdx

variable {n d : ℕ}

/-- Entry `(p, q)` of a layer with the summed row scaled by a reciprocal kept as a column, the bias (kept as a row) added last. -/
def scaledAt (S : (⟨2, ![n, d]⟩ : Shape).Idx → EReal) (inv : (⟨2, ![n, 1]⟩ : Shape).Idx → EReal)
    (X : (⟨2, ![n, d]⟩ : Shape).Idx → EReal) (Wl Wr : (⟨2, ![d, d]⟩ : Shape).Idx → EReal)
    (b : (⟨2, ![1, d]⟩ : Shape).Idx → EReal) (p : Fin n) (q : Fin d) : EReal :=
  ((∑ k : Fin d, (S (ix2 p k) * inv (ix2 p (0 : Fin 1))) * Wl (ix2 k q)) + ∑ k : Fin d, X (ix2 p k) * Wr (ix2 k q))
    + b (ix2 (0 : Fin 1) q)

/-- Entry `(p, q)` of a layer with the summed row divided by the count, the bias added before the second product. -/
def meanAt (S : (⟨2, ![n, d]⟩ : Shape).Idx → EReal) (cnt : (⟨1, ![n]⟩ : Shape).Idx → EReal)
    (X : (⟨2, ![n, d]⟩ : Shape).Idx → EReal) (Wl Wr : (⟨2, ![d, d]⟩ : Shape).Idx → EReal)
    (b : (⟨1, ![d]⟩ : Shape).Idx → EReal) (p : Fin n) (q : Fin d) : EReal :=
  ((∑ k : Fin d, Ideal.div (S (ix2 p k)) (cnt (ix1 p)) * Wl (ix2 k q)) + b (ix1 q)) + ∑ k : Fin d, X (ix2 p k) * Wr (ix2 k q)

/-- A product with the reciprocal of a non-zero extended real is the quotient by it. -/
theorem mul_one_div (x c : EReal) (hc : c ≠ 0) : x * Ideal.div 1 c = Ideal.div x c := by
  rw [Ideal.div, Ideal.div, if_neg hc, if_neg hc, one_mul]

/-- The two arrangements agree when the column holds the counts' reciprocals, the counts are non-zero and the row holds
    the bias. -/
theorem scaledAt_eq_meanAt (S : (⟨2, ![n, d]⟩ : Shape).Idx → EReal) (inv : (⟨2, ![n, 1]⟩ : Shape).Idx → EReal)
    (cnt : (⟨1, ![n]⟩ : Shape).Idx → EReal) (X : (⟨2, ![n, d]⟩ : Shape).Idx → EReal)
    (Wl Wr : (⟨2, ![d, d]⟩ : Shape).Idx → EReal) (brow : (⟨2, ![1, d]⟩ : Shape).Idx → EReal)
    (b : (⟨1, ![d]⟩ : Shape).Idx → EReal) (p : Fin n) (q : Fin d)
    (hinv : inv (ix2 p (0 : Fin 1)) = Ideal.div 1 (cnt (ix1 p))) (hc : cnt (ix1 p) ≠ 0)
    (hb : brow (ix2 (0 : Fin 1) q) = b (ix1 q)) :
    scaledAt S inv X Wl Wr brow p q = meanAt S cnt X Wl Wr b p q := by
  unfold scaledAt meanAt
  rw [hinv, hb]
  simp only [mul_one_div _ _ hc]
  exact add_right_comm _ _ _

/-- A maximum with one is not zero. -/
theorem max_one_ne_zero (x : EReal) : max x 1 ≠ 0 := by
  intro h
  have h1 : (1 : EReal) ≤ max x 1 := le_max_right _ _
  rw [h] at h1
  exact absurd h1 (by norm_num)

end Cert.LayerLaw

end
-- ==== Proof.Payload.lean ====
/-
  The two kernel bodies' stored values, read at one entry.

  Each body loads a block of 2000 summed rows, the block's column of reciprocals, a block of the nodes' own rows, the two
  weight matrices and the bias row, and stores one block: the summed rows scaled row by row, times the left weights, plus the
  own rows times the right weights, plus the bias (the first body then takes the maximum with zero). On the extended reals a
  change of float format is the identity and a matrix product into the zero accumulator is the plain sum of products, so the
  stored entry `(p, q)` is the layer's scaled arrangement at `(p, q)` of the loaded blocks.
-/
import proofs.«150199_j24610162606526_2_alg».proof.Proof.Gen.KernelIdeal.Skeleton
import proofs.«150199_j24610162606526_2_alg».proof.Proof.LibPlainProduct
import proofs.«150199_j24610162606526_2_alg».proof.Proof.LibColumnLayout
import proofs.«150199_j24610162606526_2_alg».proof.Proof.LibMeanLayer
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's dimension numbers: rows against columns, one contracted axis of extent 256 -/

theorem dot_l0 (j : S2000x256.Idx) (q : dot_S2000x256_S256x256_S2000x256_1_0_0_1_n_n.contr.Idx) :
    (dot_S2000x256_S256x256_S2000x256_1_0_0_1_n_n.lhsIdx j q (0 : Fin 2)).val = (j (0 : Fin 2)).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem dot_l1 (j : S2000x256.Idx) (q : dot_S2000x256_S256x256_S2000x256_1_0_0_1_n_n.contr.Idx) :
    (dot_S2000x256_S256x256_S2000x256_1_0_0_1_n_n.lhsIdx j q (1 : Fin 2)).val = (q ⟨0, by decide⟩).val :=
  dot_S2000x256_S256x256_S2000x256_1_0_0_1_n_n.lhsIdx_val_of_single rfl j q

theorem dot_r0 (j : S2000x256.Idx) (q : dot_S2000x256_S256x256_S2000x256_1_0_0_1_n_n.contr.Idx) :
    (dot_S2000x256_S256x256_S2000x256_1_0_0_1_n_n.rhsIdx j q (0 : Fin 2)).val = (q ⟨0, by decide⟩).val :=
  dot_S2000x256_S256x256_S2000x256_1_0_0_1_n_n.rhsIdx_val_of_single rfl j q

theorem dot_r1 (j : S2000x256.Idx) (q : dot_S2000x256_S256x256_S2000x256_1_0_0_1_n_n.contr.Idx) :
    (dot_S2000x256_S256x256_S2000x256_1_0_0_1_n_n.rhsIdx j q (1 : Fin 2)).val = (j (1 : Fin 2)).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(p, q)` of a block product into the zero accumulator is `∑ k, l[p, k] · r[k, q]`. -/
theorem product_entry {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) :=
  Cert.PlainProduct.matmul_zero_entry dot_S2000x256_S256x256_S2000x256_1_0_0_1_n_n rfl rfl dot_l0 dot_l1 dot_r0 dot_r1 l r p q

/-! ## The stored entries -/

/-- The first body stores, at `(p, q)`, the maximum with zero of the scaled arrangement of its loaded blocks. -/
theorem stored0 (x0 : Vec Ideal S2000x256 .f32) (x1 : Vec Ideal S2000x1 .f32) (x2 : Vec Ideal S2000x256 .f32)
    (x3 x4 : Vec Ideal S256x256 .bf16) (x5 : Vec Ideal S1x256 .f32) (p : Fin 2000) (q : Fin 256) :
    k0_pay1 (F := Ideal) x0 x1 x2 x3 x4 x5 (ix2 p q) = max (Cert.LayerLaw.scaledAt x0 x1 x2 x3 x4 x5 p q) 0 := by
  unfold k0_pay1 Cert.LayerLaw.scaledAt
  simp only [maximumf_apply, addf_apply, broadcast_apply, product_entry, truncf_apply, mulf_apply, shapeCast_self,
    Cert.ColumnLayout.broadcastTo_a1_ab_apply, broadcastTo_1b_ab_apply, Ideal.ofBits_def, Ideal.ofBits_zero_f32]

/-- The second body stores, at `(p, q)`, the scaled arrangement of its loaded blocks. -/
theorem stored1 (x0 : Vec Ideal S2000x256 .f32) (x1 : Vec Ideal S2000x1 .f32) (x2 : Vec Ideal S2000x256 .f32)
    (x3 x4 : Vec Ideal S256x256 .bf16) (x5 : Vec Ideal S1x256 .f32) (p : Fin 2000) (q : Fin 256) :
    k1_pay1 (F := Ideal) x0 x1 x2 x3 x4 x5 (ix2 p q) = Cert.LayerLaw.scaledAt x0 x1 x2 x3 x4 x5 p q := by
  unfold k1_pay1 Cert.LayerLaw.scaledAt
  simp only [addf_apply, product_entry, truncf_apply, mulf_apply, shapeCast_self,
    Cert.ColumnLayout.broadcastTo_a1_ab_apply, broadcastTo_1b_ab_apply]

end Cert.KernelIdeal.Body

end
-- ==== Proof.Blocks.lean ====
/-
  From blocks to arrays: what each of the two launches leaves in its output array.

  A launch runs its body at 25 grid points. Point `t` is handed rows `2000 t … 2000 t + 1999` of the summed rows, of the
  reciprocal column and of the nodes' own rows, and the whole of the two weight matrices and of the bias row; it writes back
  rows `2000 t … 2000 t + 1999` of the output. The body's stored entry `(p, q)` is the layer's scaled arrangement of its
  blocks, which read rows of the arrays, so point `t` writes block `t` of ONE whole-array function; the 25 blocks tile the
  50000 rows, so the array ends holding that function. All of it is stated at arbitrary contents `V` of the buffers when the
  launch is entered.
-/
import proofs.«150199_j24610162606526_2_alg».proof.Proof.Gen.KernelIdeal.Frame
import proofs.«150199_j24610162606526_2_alg».proof.Proof.Payload
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The whole array launch 0 leaves in its output: at row `P` and feature `q` the scaled arrangement of the arrays the
    launch finds, cut off below at zero. -/
def layer0 (c : Dev nD) : S50000x256.Idx → EReal := fun i =>
  max (Cert.LayerLaw.scaledAt (n := 50000) (d := 256) (V c main_v22) (V c main_v12) (V c main_arg0) (V c main_v23) (V c main_v24) (V c main_v25) (i 0) (i 1)) 0

/-- The printed index maps over the grid: point `t` takes row block `t` of the three row-blocked inputs and of the output,
    and the whole of the weights and of the bias row. -/
theorem idx_facts0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- Row `p` of point `t`'s block of summed rows is row `2000 t + p` of the array. -/
theorem rows0_0 (c : Dev nD) (t : Fin cfg0.N) (p : Fin 2000) (k : Fin 256) (P : Fin 50000) (hP : P.val = t.val * 2000 + p.val) :
    (iblk0 V c 0 t : S2000x256.Idx → EReal) (ix2 p k) = (V c main_v22 : S50000x256.Idx → EReal) (ix2 P k) := by
  obtain ⟨e00, e01, -⟩ := idx_facts0 t
  unfold iblk0
  rw [View.read_apply]
  show (V c main_v22 : S50000x256.Idx → EReal) _ = _
  refine congrArg _ (funext fun a => Fin.ext ?_)
  match a with
  | ⟨0, _⟩ => show win0_0.index t (0 : Fin 2) * 2000 + 1 * p.val = P.val; omega
  | ⟨1, _⟩ => show win0_0.index t (1 : Fin 2) * 256 + 1 * k.val = k.val; omega

/-- Row `p` of point `t`'s block of the reciprocal column is row `2000 t + p` of the column. -/
theorem rows0_1 (c : Dev nD) (t : Fin cfg0.N) (p : Fin 2000) (P : Fin 50000) (hP : P.val = t.val * 2000 + p.val) :
    (iblk0 V c 1 t : S2000x1.Idx → EReal) (ix2 p (0 : Fin 1)) = (V c main_v12 : S50000x1.Idx → EReal) (ix2 P (0 : Fin 1)) := by
  obtain ⟨-, -, e10, e11, -⟩ := idx_facts0 t
  unfold iblk0
  rw [View.read_apply]
  show (V c main_v12 : S50000x1.Idx → EReal) _ = _
  refine congrArg _ (funext fun a => Fin.ext ?_)
  match a with
  | ⟨0, _⟩ => show win0_1.index t (0 : Fin 2) * 2000 + 1 * p.val = P.val; omega
  | ⟨1, _⟩ => show win0_1.index t (1 : Fin 2) * 1 + 1 * 0 = 0; omega

/-- Row `p` of point `t`'s block of the nodes' own rows is row `2000 t + p` of the array. -/
theorem rows0_2 (c : Dev nD) (t : Fin cfg0.N) (p : Fin 2000) (k : Fin 256) (P : Fin 50000) (hP : P.val = t.val * 2000 + p.val) :
    (iblk0 V c 2 t : S2000x256.Idx → EReal) (ix2 p k) = (V c main_arg0 : S50000x256.Idx → EReal) (ix2 P k) := by
  obtain ⟨-, -, -, -, e20, e21, -⟩ := idx_facts0 t
  unfold iblk0
  rw [View.read_apply]
  show (V c main_arg0 : S50000x256.Idx → EReal) _ = _
  refine congrArg _ (funext fun a => Fin.ext ?_)
  match a with
  | ⟨0, _⟩ => show win0_2.index t (0 : Fin 2) * 2000 + 1 * p.val = P.val; omega
  | ⟨1, _⟩ => show win0_2.index t (1 : Fin 2) * 256 + 1 * k.val = k.val; omega

/-- Every point's block of the left weights is the whole matrix. -/
theorem whole0_3 (c : Dev nD) (t : Fin cfg0.N) (k q : Fin 256) :
    (iblk0 V c 3 t : S256x256.Idx → EReal) (ix2 k q) = (V c main_v23 : S256x256.Idx → EReal) (ix2 k q) := by
  obtain ⟨-, -, -, -, -, -, e30, e31, -⟩ := idx_facts0 t
  unfold iblk0
  rw [View.read_apply]
  show (V c main_v23 : S256x256.Idx → EReal) _ = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- Every point's block of the right weights is the whole matrix. -/
theorem whole0_4 (c : Dev nD) (t : Fin cfg0.N) (k q : Fin 256) :
    (iblk0 V c 4 t : S256x256.Idx → EReal) (ix2 k q) = (V c main_v24 : S256x256.Idx → EReal) (ix2 k q) := by
  obtain ⟨-, -, -, -, -, -, -, -, e40, e41, -⟩ := idx_facts0 t
  unfold iblk0
  rw [View.read_apply]
  show (V c main_v24 : S256x256.Idx → EReal) _ = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

/-- Every point's block of the bias row is the whole row. -/
theorem whole0_5 (c : Dev nD) (t : Fin cfg0.N) (q : Fin 256) :
    (iblk0 V c 5 t : S1x256.Idx → EReal) (ix2 (0 : Fin 1) q) = (V c main_v25 : S1x256.Idx → EReal) (ix2 (0 : Fin 1) q) := by
  obtain ⟨-, -, -, -, -, -, -, -, -, -, e50, e51, -⟩ := idx_facts0 t
  unfold iblk0
  rw [View.read_apply]
  show (V c main_v25 : S1x256.Idx → EReal) _ = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

/-- What point `t` writes back is block `t` of the whole-array function. -/
theorem written0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, -, -, -, -, e60, e61⟩ := idx_facts0 t
  have ht : t.val < 25 := t.isLt
  let P : Fin 50000 := ⟨t.val * 2000 + p.val, by have := p.isLt; omega⟩
  have hP : P.val = t.val * 2000 + p.val := rfl
  have hemb : ((cfg0.win 6).blk t).view.emb (ix2 p q) = (ix2 P q : S50000x256.Idx) := by
    funext a; apply Fin.ext
    match a with
    | ⟨0, _⟩ => show win0_6.index t (0 : Fin 2) * 2000 + 1 * p.val = P.val; omega
    | ⟨1, _⟩ => show win0_6.index t (1 : Fin 2) * 256 + 1 * q.val = q.val; omega
  show k0_pay1 (F := Ideal) (iblk0 V c 0 t) (iblk0 V c 1 t) (iblk0 V c 2 t) (iblk0 V c 3 t) (iblk0 V c 4 t) (iblk0 V c 5 t) (ix2 p q)
    = layer0 V c (((cfg0.win 6).blk t).view.emb (ix2 p q))
  rw [hemb]
  refine (Cert.KernelIdeal.Body.stored0 _ _ _ _ _ _ p q).trans ?_
  show _ = max (Cert.LayerLaw.scaledAt (n := 50000) (d := 256) (V c main_v22) (V c main_v12) (V c main_arg0) (V c main_v23) (V c main_v24) (V c main_v25) P q) 0
  refine congrArg (fun x : EReal => max x 0) ?_
  unfold Cert.LayerLaw.scaledAt
  have e0 := fun k : Fin 256 => rows0_0 V c t p k P hP
  have e1 := rows0_1 V c t p P hP
  have e2 := fun k : Fin 256 => rows0_2 V c t p k P hP
  have e3 := fun k : Fin 256 => whole0_3 V c t k q
  have e4 := fun k : Fin 256 => whole0_4 V c t k q
  have e5 := whole0_5 V c t q
  simp only [e0, e1, e2, e3, e4, e5]

/-- An index of the array lies in point `t`'s output block iff each coordinate lies in the block's range on its axis. -/
theorem mem_block0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v26).slice (win0_6.rect t)).set ↔ _
  rw [View.set_slice_whole, Rect.mem_set_unit]
  exact Iff.rfl

/-- Row `P` is written by point `P / 2000`: the 25 row blocks tile the 50000 rows. -/
theorem tiled0 (i : S50000x256.Idx) : ∃ t : Fin cfg0.N, (cfg0.win 6).flush t = true ∧ i ∈ ((cfg0.win 6).blk t).view.set := by
  have h0 : (i 0).val < 50000 := (i 0).isLt
  have h1 : (i 1).val < 256 := (i 1).isLt
  let t : Fin cfg0.N := ⟨(i 0).val / 2000, by show (i 0).val / 2000 < 25; omega⟩
  have htv : t.val = (i 0).val / 2000 := rfl
  obtain ⟨-, -, -, -, -, -, -, -, -, -, -, -, e60, e61⟩ := idx_facts0 t
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- The output array after launch 0, whole. -/
theorem array0 (c : Dev nD) : (dat0 V c).arrAt 6 cfg0.N = layer0 V c :=
  (dat0 V c).arrAt_eq_of_cover 6 (layer0 V c) (fun t _ => written0 V c t) tiled0

/-- Launch 0's whole-array function depends on the entry contents only at the six buffers its windows read. -/
theorem layer0_of (c : Dev nD) {S : S50000x256.Idx → EReal} {inv : S50000x1.Idx → EReal} {X : S50000x256.Idx → EReal}
    {Wl Wr : S256x256.Idx → EReal} {b : S1x256.Idx → EReal}
    (h0 : (V c main_v22 : S50000x256.Idx → EReal) = S) (h1 : (V c main_v12 : S50000x1.Idx → EReal) = inv)
    (h2 : (V c main_arg0 : S50000x256.Idx → EReal) = X) (h3 : (V c main_v23 : S256x256.Idx → EReal) = Wl)
    (h4 : (V c main_v24 : S256x256.Idx → EReal) = Wr) (h5 : (V c main_v25 : S1x256.Idx → EReal) = b) :
    layer0 V c = fun i => max (Cert.LayerLaw.scaledAt (n := 50000) (d := 256) S inv X Wl Wr b (i 0) (i 1)) 0 := by
  subst h0 h1 h2 h3 h4 h5
  rfl

/-! ## Launch 1 -/

/-- The whole array launch 1 leaves in its output: at row `P` and feature `q` the scaled arrangement of the arrays the
    launch finds. -/
def layer1 (c : Dev nD) : S50000x256.Idx → EReal := fun i =>
  Cert.LayerLaw.scaledAt (n := 50000) (d := 256) (V c main_v36) (V c main_v12) (V c main_v26) (V c main_v37) (V c main_v38) (V c main_v39) (i 0) (i 1)

/-- The printed index maps over the grid: point `t` takes row block `t` of the three row-blocked inputs and of the output,
    and the whole of the weights and of the bias row. -/
theorem idx_facts1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = 0 ∧ win1_5.index t (1 : Fin 2) = 0
  ∧ win1_6.index t (0 : Fin 2) = t.val ∧ win1_6.index t (1 : Fin 2) = 0 :=
  (by decide +kernel : ∀ t : Fin grid1.N, _)

/-- Row `p` of point `t`'s block of summed rows is row `2000 t + p` of the array. -/
theorem rows1_0 (c : Dev nD) (t : Fin cfg1.N) (p : Fin 2000) (k : Fin 256) (P : Fin 50000) (hP : P.val = t.val * 2000 + p.val) :
    (iblk1 V c 0 t : S2000x256.Idx → EReal) (ix2 p k) = (V c main_v36 : S50000x256.Idx → EReal) (ix2 P k) := by
  obtain ⟨e00, e01, -⟩ := idx_facts1 t
  unfold iblk1
  rw [View.read_apply]
  show (V c main_v36 : S50000x256.Idx → EReal) _ = _
  refine congrArg _ (funext fun a => Fin.ext ?_)
  match a with
  | ⟨0, _⟩ => show win1_0.index t (0 : Fin 2) * 2000 + 1 * p.val = P.val; omega
  | ⟨1, _⟩ => show win1_0.index t (1 : Fin 2) * 256 + 1 * k.val = k.val; omega

/-- Row `p` of point `t`'s block of the reciprocal column is row `2000 t + p` of the column. -/
theorem rows1_1 (c : Dev nD) (t : Fin cfg1.N) (p : Fin 2000) (P : Fin 50000) (hP : P.val = t.val * 2000 + p.val) :
    (iblk1 V c 1 t : S2000x1.Idx → EReal) (ix2 p (0 : Fin 1)) = (V c main_v12 : S50000x1.Idx → EReal) (ix2 P (0 : Fin 1)) := by
  obtain ⟨-, -, e10, e11, -⟩ := idx_facts1 t
  unfold iblk1
  rw [View.read_apply]
  show (V c main_v12 : S50000x1.Idx → EReal) _ = _
  refine congrArg _ (funext fun a => Fin.ext ?_)
  match a with
  | ⟨0, _⟩ => show win1_1.index t (0 : Fin 2) * 2000 + 1 * p.val = P.val; omega
  | ⟨1, _⟩ => show win1_1.index t (1 : Fin 2) * 1 + 1 * 0 = 0; omega

/-- Row `p` of point `t`'s block of the nodes' own rows is row `2000 t + p` of the array. -/
theorem rows1_2 (c : Dev nD) (t : Fin cfg1.N) (p : Fin 2000) (k : Fin 256) (P : Fin 50000) (hP : P.val = t.val * 2000 + p.val) :
    (iblk1 V c 2 t : S2000x256.Idx → EReal) (ix2 p k) = (V c main_v26 : S50000x256.Idx → EReal) (ix2 P k) := by
  obtain ⟨-, -, -, -, e20, e21, -⟩ := idx_facts1 t
  unfold iblk1
  rw [View.read_apply]
  show (V c main_v26 : S50000x256.Idx → EReal) _ = _
  refine congrArg _ (funext fun a => Fin.ext ?_)
  match a with
  | ⟨0, _⟩ => show win1_2.index t (0 : Fin 2) * 2000 + 1 * p.val = P.val; omega
  | ⟨1, _⟩ => show win1_2.index t (1 : Fin 2) * 256 + 1 * k.val = k.val; omega

/-- Every point's block of the left weights is the whole matrix. -/
theorem whole1_3 (c : Dev nD) (t : Fin cfg1.N) (k q : Fin 256) :
    (iblk1 V c 3 t : S256x256.Idx → EReal) (ix2 k q) = (V c main_v37 : S256x256.Idx → EReal) (ix2 k q) := by
  obtain ⟨-, -, -, -, -, -, e30, e31, -⟩ := idx_facts1 t
  unfold iblk1
  rw [View.read_apply]
  show (V c main_v37 : S256x256.Idx → EReal) _ = _
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- Every point's block of the right weights is the whole matrix. -/
theorem whole1_4 (c : Dev nD) (t : Fin cfg1.N) (k q : Fin 256) :
    (iblk1 V c 4 t : S256x256.Idx → EReal) (ix2 k q) = (V c main_v38 : S256x256.Idx → EReal) (ix2 k q) := by
  obtain ⟨-, -, -, -, -, -, -, -, e40, e41, -⟩ := idx_facts1 t
  unfold iblk1
  rw [View.read_apply]
  show (V c main_v38 : S256x256.Idx → EReal) _ = _
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * q.val = q.val; omega

/-- Every point's block of the bias row is the whole row. -/
theorem whole1_5 (c : Dev nD) (t : Fin cfg1.N) (q : Fin 256) :
    (iblk1 V c 5 t : S1x256.Idx → EReal) (ix2 (0 : Fin 1) q) = (V c main_v39 : S1x256.Idx → EReal) (ix2 (0 : Fin 1) q) := by
  obtain ⟨-, -, -, -, -, -, -, -, -, -, e50, e51, -⟩ := idx_facts1 t
  unfold iblk1
  rw [View.read_apply]
  show (V c main_v39 : S1x256.Idx → EReal) _ = _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

/-- What point `t` writes back is block `t` of the whole-array function. -/
theorem written1 (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, -, -, -, -, e60, e61⟩ := idx_facts1 t
  have ht : t.val < 25 := t.isLt
  let P : Fin 50000 := ⟨t.val * 2000 + p.val, by have := p.isLt; omega⟩
  have hP : P.val = t.val * 2000 + p.val := rfl
  have hemb : ((cfg1.win 6).blk t).view.emb (ix2 p q) = (ix2 P q : S50000x256.Idx) := by
    funext a; apply Fin.ext
    match a with
    | ⟨0, _⟩ => show win1_6.index t (0 : Fin 2) * 2000 + 1 * p.val = P.val; omega
    | ⟨1, _⟩ => show win1_6.index t (1 : Fin 2) * 256 + 1 * q.val = q.val; omega
  show k1_pay1 (F := Ideal) (iblk1 V c 0 t) (iblk1 V c 1 t) (iblk1 V c 2 t) (iblk1 V c 3 t) (iblk1 V c 4 t) (iblk1 V c 5 t) (ix2 p q)
    = layer1 V c (((cfg1.win 6).blk t).view.emb (ix2 p q))
  rw [hemb]
  refine (Cert.KernelIdeal.Body.stored1 _ _ _ _ _ _ p q).trans ?_
  show _ = Cert.LayerLaw.scaledAt (n := 50000) (d := 256) (V c main_v36) (V c main_v12) (V c main_v26) (V c main_v37) (V c main_v38) (V c main_v39) P q
  unfold Cert.LayerLaw.scaledAt
  have e0 := fun k : Fin 256 => rows1_0 V c t p k P hP
  have e1 := rows1_1 V c t p P hP
  have e2 := fun k : Fin 256 => rows1_2 V c t p k P hP
  have e3 := fun k : Fin 256 => whole1_3 V c t k q
  have e4 := fun k : Fin 256 => whole1_4 V c t k q
  have e5 := whole1_5 V c t q
  simp only [e0, e1, e2, e3, e4, e5]

/-- An index of the array lies in point `t`'s output block iff each coordinate lies in the block's range on its axis. -/
theorem mem_block1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v40).slice (win1_6.rect t)).set ↔ _
  rw [View.set_slice_whole, Rect.mem_set_unit]
  exact Iff.rfl

/-- Row `P` is written by point `P / 2000`: the 25 row blocks tile the 50000 rows. -/
theorem tiled1 (i : S50000x256.Idx) : ∃ t : Fin cfg1.N, (cfg1.win 6).flush t = true ∧ i ∈ ((cfg1.win 6).blk t).view.set := by
  have h0 : (i 0).val < 50000 := (i 0).isLt
  have h1 : (i 1).val < 256 := (i 1).isLt
  let t : Fin cfg1.N := ⟨(i 0).val / 2000, by show (i 0).val / 2000 < 25; omega⟩
  have htv : t.val = (i 0).val / 2000 := rfl
  obtain ⟨-, -, -, -, -, -, -, -, -, -, -, -, e60, e61⟩ := idx_facts1 t
  refine ⟨t, flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- The output array after launch 1, whole. -/
theorem array1 (c : Dev nD) : (dat1 V c).arrAt 6 cfg1.N = layer1 V c :=
  (dat1 V c).arrAt_eq_of_cover 6 (layer1 V c) (fun t _ => written1 V c t) tiled1

/-- Launch 1's whole-array function depends on the entry contents only at the six buffers its windows read. -/
theorem layer1_of (c : Dev nD) {S : S50000x256.Idx → EReal} {inv : S50000x1.Idx → EReal} {X : S50000x256.Idx → EReal}
    {Wl Wr : S256x256.Idx → EReal} {b : S1x256.Idx → EReal}
    (h0 : (V c main_v36 : S50000x256.Idx → EReal) = S) (h1 : (V c main_v12 : S50000x1.Idx → EReal) = inv)
    (h2 : (V c main_v26 : S50000x256.Idx → EReal) = X) (h3 : (V c main_v37 : S256x256.Idx → EReal) = Wl)
    (h4 : (V c main_v38 : S256x256.Idx → EReal) = Wr) (h5 : (V c main_v39 : S1x256.Idx → EReal) = b) :
    layer1 V c = fun i => Cert.LayerLaw.scaledAt (n := 50000) (d := 256) S inv X Wl Wr b (i 0) (i 1) := by
  subst h0 h1 h2 h3 h4 h5
  rfl

end Cert.KernelIdeal.Blocks

end
-- ==== Proof.HostSide.lean ====
/-
  The host lines around the two launches, read at the buffers the launches take.

  Before the first launch the host lines compute, from the edge list, the source and target rows; the clipped in-degree of
  every node and its reciprocal as a column; the sum over arriving edges of the source nodes' feature rows; and they re-lay
  the weights (a change of float format, the identity on the extended reals) and the bias (as a row). These are the same
  operations, in the same order and with the same literals, as the reference's own first lines, so each buffer holds the
  reference's own term of the arguments — except the reciprocal column, which the reference never forms.
  The first launch leaves every buffer that is not one of its arrays as it found it, and its input arrays too.
-/
import proofs.«150199_j24610162606526_2_alg».proof.Proof.Gen.KernelIdeal.Frame
import proofs.«150199_j24610162606526_2_alg».proof.Proof.Gen.ReferenceIdeal.Read
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The reciprocal of the clipped in-degree, one per node, laid out as a column. -/
abbrev recipColumn (E : (⟨S2x800000, .i32⟩ : BufTy).Contents (Elt Ideal)) : S50000x1.Idx → EReal :=
  shapeCast S50000x1 (Host.divf (F := Ideal) (broadcastInDim S50000 ![] bcast_S_S50000 (constant (F := Ideal) S_ .f32 0x3F800000#32)) (Cert.ReferenceIdeal.Read.val_main_v19 (F := Ideal) E)) shapeCasts_S50000_S50000x1

/-! ## What the first launch is entered with -/

/-- The summed neighbour rows of the input features. -/
theorem summed0 (c : Dev nD) : (V1 m ρ c main_v22 : S50000x256.Idx → EReal) = Cert.ReferenceIdeal.Read.val_main_v13 (F := Ideal) (m ((c : Thread nD τ).loc main_arg0)) (m ((c : Thread nD τ).loc main_arg1)) := by
  show StableHlo.after hostOps0 (W0 m ρ c) (Proc.devRef .tc main_v22) = _
  after_results_simp <;> rfl

/-- The reciprocal column. -/
theorem recip0 (c : Dev nD) : (V1 m ρ c main_v12 : S50000x1.Idx → EReal) = recipColumn (m ((c : Thread nD τ).loc main_arg1)) := by
  show StableHlo.after hostOps0 (W0 m ρ c) (Proc.devRef .tc main_v12) = _
  after_results_simp <;> rfl

/-- The nodes' own rows: the input features. -/
theorem own0 (c : Dev nD) : (V1 m ρ c main_arg0 : S50000x256.Idx → EReal) = (m ((c : Thread nD τ).loc main_arg0)) := by
  show StableHlo.after hostOps0 (W0 m ρ c) (Proc.devRef .tc main_arg0) = _
  after_results_simp <;> rfl

/-- The first layer's left weights. -/
theorem left0 (c : Dev nD) : (V1 m ρ c main_v23 : S256x256.Idx → EReal) = (m ((c : Thread nD τ).loc main_arg2)) := by
  show StableHlo.after hostOps0 (W0 m ρ c) (Proc.devRef .tc main_v23) = _
  after_results_simp <;> rfl

/-- The first layer's right weights. -/
theorem right0 (c : Dev nD) : (V1 m ρ c main_v24 : S256x256.Idx → EReal) = (m ((c : Thread nD τ).loc main_arg4)) := by
  show StableHlo.after hostOps0 (W0 m ρ c) (Proc.devRef .tc main_v24) = _
  after_results_simp <;> rfl

/-- The first layer's bias, as a row. -/
theorem bias0 (c : Dev nD) : (V1 m ρ c main_v25 : S1x256.Idx → EReal) = shapeCast S1x256 (m ((c : Thread nD τ).loc main_arg3)) shapeCasts_S256_S1x256 := by
  show StableHlo.after hostOps0 (W0 m ρ c) (Proc.devRef .tc main_v25) = _
  after_results_simp <;> rfl

/-! ## What the first launch leaves for the host lines after it -/

/-- The source row of the edge list. -/
theorem src_kept (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

/-- The target row of the edge list. -/
theorem tgt_kept (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

/-- The second layer's left weights, as launched. -/
theorem arg5_kept (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-- The second layer's bias, as launched. -/
theorem arg6_kept (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-- The second layer's right weights, as launched. -/
theorem arg7_kept (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

/-- The reciprocal column is an input array of the first launch, which leaves it as it found it. -/
theorem recip_kept (c : Dev nD) : W2 m ρ c (Proc.devRef .tc main_v12) = recipColumn (m ((c : Thread nD τ).loc main_arg1)) :=
  ((W2_arr m ρ c 1).trans (((dat0 (V1 m ρ) c).arrAt_in 1 rfl _).trans (A_eq0 (V1 m ρ) c 1))).trans (recip0 m ρ c)

end Cert.KernelIdeal.HostSide

end
-- ==== Proof.RefSide.lean ====
/-
  The reference, one layer at a time, read at an entry.

  The reference's hidden layer at `(p, q)` is the maximum with zero of the mean arrangement — the summed neighbour rows divided
  by the clipped count, times the left weights, plus the bias, plus the nodes' own rows times the right weights — and its
  result is the same arrangement over the hidden layer, without the cut-off. Both are read off the reference's operations
  one at a time: a matrix product is the plain sum of products, the broadcasts of the count column and of the bias row read
  the count of row `p` and the bias of feature `q`.
-/
import proofs.«150199_j24610162606526_2_alg».proof.Proof.Gen.ReferenceIdeal.Read
import proofs.«150199_j24610162606526_2_alg».proof.Proof.LibMeanLayer
import Idealize.ShloMosaic.Lib.IdealHost

noncomputable section

namespace Cert.ReferenceIdeal.Layers

open Cert.ReferenceIdeal Cert.ReferenceIdeal.Read Idealize.ShloMosaic Idealize.ShloMosaic.ValueIdx

variable (x0 : (⟨S50000x256, .f32⟩ : BufTy).Contents (Elt Ideal)) (x1 : (⟨S2x800000, .i32⟩ : BufTy).Contents (Elt Ideal))
  (x2 : (⟨S256x256, .f32⟩ : BufTy).Contents (Elt Ideal)) (x3 : (⟨S256, .f32⟩ : BufTy).Contents (Elt Ideal)) (x4 : (⟨S256x256, .f32⟩ : BufTy).Contents (Elt Ideal))
  (x5 : (⟨S256x256, .f32⟩ : BufTy).Contents (Elt Ideal)) (x6 : (⟨S256, .f32⟩ : BufTy).Contents (Elt Ideal)) (x7 : (⟨S256x256, .f32⟩ : BufTy).Contents (Elt Ideal))

/-- The hidden layer at `(p, q)`: the mean arrangement of the input features, cut off below at zero. -/
theorem hidden_apply (p : Fin 50000) (q : Fin 256) :
    val_main_v29 (F := Ideal) x0 x1 x2 x3 x4 (ix2 p q)
      = max (Cert.LayerLaw.meanAt (n := 50000) (d := 256) (val_main_v13 (F := Ideal) x0 x1) (val_main_v19 (F := Ideal) x1) x0 x2 x4 x3 p q) 0 := by
  have hl_v23 : ∀ k : Fin 256, lidx_main_v23 (ix2 p q) k = ix2 p k := fun k => funext fun a => Fin.ext (by
    match a with
    | ⟨0, _⟩ => rfl
    | ⟨1, _⟩ => rfl)
  have hr_v23 : ∀ k : Fin 256, ridx_main_v23 (ix2 p q) k = ix2 k q := fun k => funext fun a => Fin.ext (by
    match a with
    | ⟨0, _⟩ => rfl
    | ⟨1, _⟩ => rfl)
  have hl_v27 : ∀ k : Fin 256, lidx_main_v27 (ix2 p q) k = ix2 p k := fun k => funext fun a => Fin.ext (by
    match a with
    | ⟨0, _⟩ => rfl
    | ⟨1, _⟩ => rfl)
  have hr_v27 : ∀ k : Fin 256, ridx_main_v27 (ix2 p q) k = ix2 k q := fun k => funext fun a => Fin.ext (by
    match a with
    | ⟨0, _⟩ => rfl
    | ⟨1, _⟩ => rfl)
  have hc : ∀ k : Fin 256, idx_main_v20 (idx_main_v21 (ix2 p k)) = ix1 p := fun k => funext fun a => Fin.ext (by
    match a with
    | ⟨0, _⟩ => rfl)
  have hb : idx_main_v24 (idx_main_v25 (ix2 p q)) = ix1 q := funext fun a => Fin.ext (by
    match a with
    | ⟨0, _⟩ => rfl)
  have s1 : (∑ k : Fin 256, val_main_v22 (F := Ideal) x0 x1 (lidx_main_v23 (ix2 p q) k) * x2 (ridx_main_v23 (ix2 p q) k))
      = ∑ k : Fin 256, Ideal.div (val_main_v13 (F := Ideal) x0 x1 (ix2 p k)) (val_main_v19 (F := Ideal) x1 (ix1 p)) * x2 (ix2 k q) :=
    Finset.sum_congr rfl fun k _ => by
      rw [hl_v23 k, hr_v23 k, val_main_v22_apply, val_main_v21_apply, val_main_v20_apply, hc k]
      rfl
  have s2 : (∑ k : Fin 256, x0 (lidx_main_v27 (ix2 p q) k) * x4 (ridx_main_v27 (ix2 p q) k))
      = ∑ k : Fin 256, x0 (ix2 p k) * x4 (ix2 k q) :=
    Finset.sum_congr rfl fun k _ => by rw [hl_v27 k, hr_v27 k]
  rw [val_main_v29_apply, val_main_v28_apply, val_main_v26_apply, val_main_v23_apply, val_main_v27_apply, val_main_v25_apply,
    val_main_v24_apply, val_main_call0_v0_apply, val_main_call0_cst_apply, s1, s2, hb, Ideal.ofBits_def, Ideal.ofBits_zero_f32]
  rfl

/-- The result at `(p, q)`: the mean arrangement of the hidden layer. -/
theorem result_apply (p : Fin 50000) (q : Fin 256) :
    val_main_v54 (F := Ideal) x0 x1 x2 x3 x4 x5 x6 x7 (ix2 p q)
      = Cert.LayerLaw.meanAt (n := 50000) (d := 256) (val_main_v39 (F := Ideal) x0 x1 x2 x3 x4) (val_main_v45 (F := Ideal) x1)
          (val_main_v29 (F := Ideal) x0 x1 x2 x3 x4) x5 x7 x6 p q := by
  have hl_v49 : ∀ k : Fin 256, lidx_main_v49 (ix2 p q) k = ix2 p k := fun k => funext fun a => Fin.ext (by
    match a with
    | ⟨0, _⟩ => rfl
    | ⟨1, _⟩ => rfl)
  have hr_v49 : ∀ k : Fin 256, ridx_main_v49 (ix2 p q) k = ix2 k q := fun k => funext fun a => Fin.ext (by
    match a with
    | ⟨0, _⟩ => rfl
    | ⟨1, _⟩ => rfl)
  have hl_v53 : ∀ k : Fin 256, lidx_main_v53 (ix2 p q) k = ix2 p k := fun k => funext fun a => Fin.ext (by
    match a with
    | ⟨0, _⟩ => rfl
    | ⟨1, _⟩ => rfl)
  have hr_v53 : ∀ k : Fin 256, ridx_main_v53 (ix2 p q) k = ix2 k q := fun k => funext fun a => Fin.ext (by
    match a with
    | ⟨0, _⟩ => rfl
    | ⟨1, _⟩ => rfl)
  have hc : ∀ k : Fin 256, idx_main_v46 (idx_main_v47 (ix2 p k)) = ix1 p := fun k => funext fun a => Fin.ext (by
    match a with
    | ⟨0, _⟩ => rfl)
  have hb : idx_main_v50 (idx_main_v51 (ix2 p q)) = ix1 q := funext fun a => Fin.ext (by
    match a with
    | ⟨0, _⟩ => rfl)
  have s1 : (∑ k : Fin 256, val_main_v48 (F := Ideal) x0 x1 x2 x3 x4 (lidx_main_v49 (ix2 p q) k) * x5 (ridx_main_v49 (ix2 p q) k))
      = ∑ k : Fin 256, Ideal.div (val_main_v39 (F := Ideal) x0 x1 x2 x3 x4 (ix2 p k)) (val_main_v45 (F := Ideal) x1 (ix1 p)) * x5 (ix2 k q) :=
    Finset.sum_congr rfl fun k _ => by
      rw [hl_v49 k, hr_v49 k, val_main_v48_apply, val_main_v47_apply, val_main_v46_apply, hc k]
      rfl
  have s2 : (∑ k : Fin 256, val_main_v29 (F := Ideal) x0 x1 x2 x3 x4 (lidx_main_v53 (ix2 p q) k) * x7 (ridx_main_v53 (ix2 p q) k))
      = ∑ k : Fin 256, val_main_v29 (F := Ideal) x0 x1 x2 x3 x4 (ix2 p k) * x7 (ix2 k q) :=
    Finset.sum_congr rfl fun k _ => by rw [hl_v53 k, hr_v53 k]
  rw [val_main_v54_apply, val_main_v52_apply, val_main_v49_apply, val_main_v53_apply, val_main_v51_apply,
    val_main_v50_apply, s1, s2, hb]
  rfl

/-- The clipped in-degree is a maximum with one, so it is not zero. -/
theorem degree_ne_zero (p : Fin 50000) : val_main_v19 (F := Ideal) x1 (ix1 p) ≠ 0 := by
  rw [val_main_v19_apply, val_main_v18_apply, val_main_cst_3_apply, Ideal.maximumf_def, Ideal.ofBits_def, Ideal.ofBits_one_f32]
  exact Cert.LayerLaw.max_one_ne_zero _

/-- The second layer divides by the same clipped in-degree: the same operations on the same edge list. -/
theorem degree_again : val_main_v45 (F := Ideal) x1 = val_main_v19 (F := Ideal) x1 := rfl

end Cert.ReferenceIdeal.Layers

end
-- ==== Proof.Bridge.lean ====
/-
  The two launches against the reference's two layers.

  The first launch is entered with the summed neighbour rows of the input features, the reciprocal column, the input
  features, the first layer's weights and its bias row: its output array is the layer's scaled arrangement of these, cut off
  below at zero, which is the reference's hidden layer — the reciprocal of the clipped in-degree times a summed row is the
  quotient by it (the clipped in-degree is at least one, so not zero), and the bias may be added before or after the second
  product. The host lines after it sum, over the same edges, rows of that output; the second launch is entered with those
  sums, the same reciprocal column, the first output and the second layer's weights and bias, and its output array is the
  reference's result by the same law.
-/
import proofs.«150199_j24610162606526_2_alg».proof.Proof.Blocks
import proofs.«150199_j24610162606526_2_alg».proof.Proof.HostSide
import proofs.«150199_j24610162606526_2_alg».proof.Proof.RefSide
import Idealize.ShloMosaic.Lib.ValueLayout
import Idealize.ShloMosaic.Lib.IdealHost

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Row `P` of the reciprocal column is one over the clipped in-degree of node `P`. -/
theorem recip_apply (E : (⟨S2x800000, .i32⟩ : BufTy).Contents (Elt Ideal)) (P : Fin 50000) :
    Cert.KernelIdeal.HostSide.recipColumn E (ix2 P (0 : Fin 1)) = Ideal.div 1 (Cert.ReferenceIdeal.Read.val_main_v19 (F := Ideal) E (ix1 P)) := by
  refine (Cert.ColumnLayout.shapeCast_a_a1_apply _ _ P (0 : Fin 1)).trans ?_
  rw [hostDivf_apply, broadcastInDim_scalar_apply, constant_apply, Ideal.ofBits_one_f32]

/-- Entry `q` of a bias laid out as a row. -/
theorem bias_apply (b : (⟨S256, .f32⟩ : BufTy).Contents (Elt Ideal)) (q : Fin 256) :
    (shapeCast S1x256 b shapeCasts_S256_S1x256 : S1x256.Idx → EReal) (ix2 (0 : Fin 1) q) = b (ix1 q) :=
  shapeCast_a_1a_apply _ _ (0 : Fin 1) q

/-! ## The first launch: the hidden layer -/

/-- The first launch's output array is the reference's hidden layer of the arguments. -/
theorem hidden_eq (c : Dev nD) :
    (dat0 (V1 m ρ) c).arrAt 6 cfg0.N = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.Blocks.array0, Cert.KernelIdeal.Blocks.layer0_of (V1 m ρ) c
    (Cert.KernelIdeal.HostSide.summed0 m ρ c) (Cert.KernelIdeal.HostSide.recip0 m ρ c) (Cert.KernelIdeal.HostSide.own0 m ρ c)
    (Cert.KernelIdeal.HostSide.left0 m ρ c) (Cert.KernelIdeal.HostSide.right0 m ρ c) (Cert.KernelIdeal.HostSide.bias0 m ρ c)]
  funext i
  obtain ⟨P, q, rfl⟩ : ∃ (P : Fin 50000) (q : Fin 256), i = ix2 P q := ⟨i 0, i 1, eq_ix2 i⟩
  rw [Cert.ReferenceIdeal.Layers.hidden_apply]
  refine congrArg (fun x : EReal => max x 0) ?_
  exact Cert.LayerLaw.scaledAt_eq_meanAt (n := 50000) (d := 256) (Cert.ReferenceIdeal.Read.val_main_v13 (F := Ideal) (m ((c : Thread nD τ).loc main_arg0)) (m ((c : Thread nD τ).loc main_arg1))) (Cert.KernelIdeal.HostSide.recipColumn (m ((c : Thread nD τ).loc main_arg1))) (Cert.ReferenceIdeal.Read.val_main_v19 (F := Ideal) (m ((c : Thread nD τ).loc main_arg1)))
    (m ((c : Thread nD τ).loc main_arg0)) (m ((c : Thread nD τ).loc main_arg2)) (m ((c : Thread nD τ).loc main_arg4)) (shapeCast S1x256 (m ((c : Thread nD τ).loc main_arg3)) shapeCasts_S256_S1x256) (m ((c : Thread nD τ).loc main_arg3)) P q
    (recip_apply (m ((c : Thread nD τ).loc main_arg1)) P) (Cert.ReferenceIdeal.Layers.degree_ne_zero (m ((c : Thread nD τ).loc main_arg1)) P) (bias_apply (m ((c : Thread nD τ).loc main_arg3)) q)

/-- So the hidden layer is what the host lines after the first launch find in its output buffer. -/
theorem hidden_kept (c : Dev nD) :
    W2 m ρ c (Proc.devRef .tc main_v26) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans (hidden_eq m ρ c)

/-! ## What the second launch is entered with -/

/-- The summed neighbour rows of the hidden layer: the reference's own sums. -/
theorem summed1 (c : Dev nD) : (V3 m ρ c main_v36 : S50000x256.Idx → EReal) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results_simp
  rw [hidden_kept m ρ c, Cert.KernelIdeal.HostSide.src_kept m ρ c, Cert.KernelIdeal.HostSide.tgt_kept m ρ c]
  rfl

/-- The reciprocal column, unchanged. -/
theorem recip1 (c : Dev nD) : (V3 m ρ c main_v12 : S50000x1.Idx → EReal) = Cert.KernelIdeal.HostSide.recipColumn (m ((c : Thread nD τ).loc main_arg1)) := by
  show StableHlo.after hostOps1 (W2 m ρ c) (Proc.devRef .tc main_v12) = _
  after_results_simp
  exact Cert.KernelIdeal.HostSide.recip_kept m ρ c

/-- The nodes' own rows: the hidden layer. -/
theorem own1 (c : Dev nD) : (V3 m ρ c main_v26 : S50000x256.Idx → EReal) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact hidden_kept m ρ c

/-- The second layer's left weights. -/
theorem left1 (c : Dev nD) : (V3 m ρ c main_v37 : S256x256.Idx → EReal) = (m ((c : Thread nD τ).loc main_arg5)) := by
  show StableHlo.after hostOps1 (W2 m ρ c) (Proc.devRef .tc main_v37) = _
  after_results_simp
  rw [Cert.KernelIdeal.HostSide.arg5_kept m ρ c]
  rfl

/-- The second layer's right weights. -/
theorem right1 (c : Dev nD) : (V3 m ρ c main_v38 : S256x256.Idx → EReal) = (m ((c : Thread nD τ).loc main_arg7)) := by
  show StableHlo.after hostOps1 (W2 m ρ c) (Proc.devRef .tc main_v38) = _
  after_results_simp
  rw [Cert.KernelIdeal.HostSide.arg7_kept m ρ c]
  rfl

/-- The second layer's bias, as a row. -/
theorem bias1 (c : Dev nD) : (V3 m ρ c main_v39 : S1x256.Idx → EReal) = shapeCast S1x256 (m ((c : Thread nD τ).loc main_arg6)) shapeCasts_S256_S1x256 := by
  show StableHlo.after hostOps1 (W2 m ρ c) (Proc.devRef .tc main_v39) = _
  after_results_simp
  rw [Cert.KernelIdeal.HostSide.arg6_kept m ρ c]
  rfl

/-! ## The second launch: the result -/

/-- The second launch's output array is the reference's result of the arguments. -/
theorem result_eq (c : Dev nD) :
    (dat1 (V3 m ρ) c).arrAt 6 cfg1.N = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Blocks.array1, Cert.KernelIdeal.Blocks.layer1_of (V3 m ρ) c
    (summed1 m ρ c) (recip1 m ρ c) (own1 m ρ c) (left1 m ρ c) (right1 m ρ c) (bias1 m ρ c)]
  funext i
  obtain ⟨P, q, rfl⟩ : ∃ (P : Fin 50000) (q : Fin 256), i = ix2 P q := ⟨i 0, i 1, eq_ix2 i⟩
  rw [Cert.ReferenceIdeal.Layers.result_apply, Cert.ReferenceIdeal.Layers.degree_again]
  exact Cert.LayerLaw.scaledAt_eq_meanAt (n := 50000) (d := 256) (Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.KernelIdeal.HostSide.recipColumn (m ((c : Thread nD τ).loc main_arg1))) (Cert.ReferenceIdeal.Read.val_main_v19 (F := Ideal) (m ((c : Thread nD τ).loc main_arg1)))
    (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg7)) (shapeCast S1x256 (m ((c : Thread nD τ).loc main_arg6)) shapeCasts_S256_S1x256) (m ((c : Thread nD τ).loc main_arg6)) P q
    (recip_apply (m ((c : Thread nD τ).loc main_arg1)) P) (Cert.ReferenceIdeal.Layers.degree_ne_zero (m ((c : Thread nD τ).loc main_arg1)) P) (bias_apply (m ((c : Thread nD τ).loc main_arg6)) q)

/-- The result's buffer at the last boundary holds the reference's result of the arguments. -/
theorem result_named (c : Dev nD) :
    W4 m ρ c (Proc.devRef .tc main_v40) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans (result_eq m ρ c)

end Cert.KernelIdeal.Layers

end
-- ==== Proof.lean ====
/-
  Two mean-aggregating graph layers computed by two tiled kernel launches, against the same two layers written directly.

  Both programs take node features `x` (50000 × 256), an edge list (2 × 800000), and per layer two 256 × 256 weight matrices and a
  bias. For every node both sum the feature rows of the source nodes of its incoming edges and count those edges, the count
  clipped below at one. A layer is then `mean · W_l + b + own · W_r`, the first layer followed by a maximum with zero, the second
  applied to the first's output over the same edges.

  The direct program divides each summed row by the clipped count. The tiled program forms the reciprocal of the clipped count
  once, as a column, and each launch multiplies its block of summed rows by its block of that column, row by row, before the two
  matrix products (into zero accumulators, after a change of float format that is the identity on the extended reals) and adds
  the bias after both products rather than between them.

  On the extended reals these agree entry by entry: a quotient by a non-zero `c` is the product with `c⁻¹`, and `1 / c` is
  `c⁻¹`; the clipped count is a maximum with one, hence not zero; and addition is commutative and associative. The gathers and
  the scattered sums are the same operations on the same edge list in both programs and are never opened. No finiteness of the
  inputs is used: the precondition is not opened.

  The modules: `LibMeanLayer` (the two arrangements of one layer and the law between them), `Payload` (what a launch's body stores,
  at an entry), `Blocks` (from the 25 row blocks to the whole output array of a launch), `HostSide` (what the host lines hand
  each launch), `RefSide` (the direct program's layers at an entry), `Bridge` (each launch's output is the direct program's
  layer), `KernelRun` (the tiled program's run with its result named).
-/
import proofs.«150199_j24610162606526_2_alg».proof.Defs
import proofs.«150199_j24610162606526_2_alg».proof.Proof.Gen.Kernel
import proofs.«150199_j24610162606526_2_alg».proof.Proof.Gen.Kernel.Skeleton
import proofs.«150199_j24610162606526_2_alg».proof.Proof.Gen.Kernel.Launch
import proofs.«150199_j24610162606526_2_alg».proof.Proof.Gen.Kernel.Points
import proofs.«150199_j24610162606526_2_alg».proof.Proof.Gen.Kernel.Frame
import proofs.«150199_j24610162606526_2_alg».proof.Proof.Gen.KernelIdeal
import proofs.«150199_j24610162606526_2_alg».proof.Proof.Gen.KernelIdeal.Skeleton
import proofs.«150199_j24610162606526_2_alg».proof.Proof.Gen.KernelIdeal.Launch
import proofs.«150199_j24610162606526_2_alg».proof.Proof.Gen.KernelIdeal.Points
import proofs.«150199_j24610162606526_2_alg».proof.Proof.Gen.KernelIdeal.Frame
import proofs.«150199_j24610162606526_2_alg».proof.Proof.Gen.ReferenceIdeal
import proofs.«150199_j24610162606526_2_alg».proof.Proof.Gen.ReferenceIdeal.Run
import proofs.«150199_j24610162606526_2_alg».proof.Proof.Gen.ReferenceIdeal.Read
import proofs.«150199_j24610162606526_2_alg».proof.Proof.Gen.Pre_finite_inputs
import proofs.«150199_j24610162606526_2_alg».proof.Proof.KernelRun
import proofs.«150199_j24610162606526_2_alg».proof.Proof.Bridge
import Idealize.ShloMosaic.Adequacy
import Idealize.ShloMosaic.Init

noncomputable section

namespace Cert.Proof

open Idealize.ShloMosaic Idealize.SL.Sem

/-- The tiled program as printed runs to the end without a fault and leaves its arguments as launched. -/
theorem frame_kernel : Cert.frame_Kernel := fun m ρ _ => Cert.Kernel.Gen.frame m ρ

/-- So does the tiled program read on the extended reals. -/
theorem frame_kernel_ideal : Cert.frame_KernelIdeal := fun m ρ _ => Cert.KernelIdeal.Gen.frame m ρ

/-- And the direct program: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the direct program's result term of the arguments: the
    tiled program by its two launches (`Layers.result_named`), the direct program by its own run. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result_named m ρ c), (h c).2⟩)
      (Cert.KernelIdeal.Result.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v54_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
